-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x500000x24 : Shape := ⟨3, ![4, 500000, 24]⟩
abbrev S_ : Shape := ⟨0, ![]⟩

class Facts : Prop where
  bcast_S_S4x500000x24 : S_.BroadcastsInDim S4x500000x24 (![] : Fin 0 → Fin S4x500000x24.rank)
  reducesTo_S4x500000x24_S_d0_1_2 : S4x500000x24.ReducesTo [0, 1, 2] S_
  h_S_ : 0 < S_.numel

variable [Facts]

def fn {F : FTy → Type} [FloatOps F] (main_arg0 : FVec F S4x500000x24 .f32) (main_arg1 : FVec F S4x500000x24 .f32) : IVec S_ 1 :=
  let main_v0 : FVec F S4x500000x24 .f32 := Host.absf main_arg0
  let main_cst : FVec F S_ .f32 := constant S_ .f32 0x7F800000#32
  let main_v1 : FVec F S4x500000x24 .f32 := broadcastInDim S4x500000x24 ![] bcast_S_S4x500000x24 main_cst
  let main_v2 : IVec S4x500000x24 1 := cmpf .olt main_v0 main_v1
  let main_c : IVec S_ 1 := constantI S_ 1 1#1
  let main_v3 : IVec S_ 1 := (fun x v => Host.reduce IntOp.andi x v reducesTo_S4x500000x24_S_d0_1_2 h_S_) main_v2 main_c
  let main_v4 : FVec F S4x500000x24 .f32 := Host.absf main_arg1
  let main_cst_0 : FVec F S_ .f32 := constant S_ .f32 0x7F800000#32
  let main_v5 : FVec F S4x500000x24 .f32 := broadcastInDim S4x500000x24 ![] bcast_S_S4x500000x24 main_cst_0
  let main_v6 : IVec S4x500000x24 1 := cmpf .olt main_v4 main_v5
  let main_c_1 : IVec S_ 1 := constantI S_ 1 1#1
  let main_v7 : IVec S_ 1 := (fun x v => Host.reduce IntOp.andi x v reducesTo_S4x500000x24_S_d0_1_2 h_S_) main_v6 main_c_1
  let main_v8 : IVec S_ 1 := andi main_v3 main_v7
  main_v8
-- ==== Kernel.lean ====
abbrev S4x500000x24 : Shape := ⟨3, ![4, 500000, 24]⟩
abbrev S4x12000000 : Shape := ⟨2, ![4, 12000000]⟩
abbrev S1x12000000 : Shape := ⟨2, ![1, 12000000]⟩
abbrev S4x48000 : Shape := ⟨2, ![4, 48000]⟩
abbrev S1x48000 : Shape := ⟨2, ![1, 48000]⟩
abbrev S48000 : Shape := ⟨1, ![48000]⟩
abbrev S500000x24 : Shape := ⟨2, ![500000, 24]⟩

abbrev nBuf : Space → Nat
  | .hbm => 8
  | .vmem => 8
  | .smem => 0
  | _ => 0

abbrev bufTy : (tb : Table) → Fin (tcTables nBuf tb) → BufTy
  | .hbm, ⟨0, _⟩ => ⟨S4x500000x24, .f32⟩
  | .hbm, ⟨1, _⟩ => ⟨S4x500000x24, .f32⟩
  | .hbm, ⟨2, _⟩ => ⟨S4x12000000, .f32⟩
  | .hbm, ⟨3, _⟩ => ⟨S4x12000000, .f32⟩
  | .hbm, ⟨4, _⟩ => ⟨S1x12000000, .f32⟩
  | .hbm, ⟨5, _⟩ => ⟨S4x12000000, .f32⟩
  | .hbm, ⟨6, _⟩ => ⟨S500000x24, .f32⟩
  | .hbm, ⟨7, _⟩ => ⟨S4x500000x24, .f32⟩
  | .local _ .vmem, ⟨0, _⟩ => ⟨S4x48000, .f32⟩
  | .local _ .vmem, ⟨1, _⟩ => ⟨S4x48000, .f32⟩
  | .local _ .vmem, ⟨2, _⟩ => ⟨S4x48000, .f32⟩
  | .local _ .vmem, ⟨3, _⟩ => ⟨S4x48000, .f32⟩
  | .local _ .vmem, ⟨4, _⟩ => ⟨S1x48000, .f32⟩
  | .local _ .vmem, ⟨5, _⟩ => ⟨S1x48000, .f32⟩
  | .local _ .vmem, ⟨6, _⟩ => ⟨S4x48000, .f32⟩
  | .local _ .vmem, ⟨7, _⟩ => ⟨S4x48000, .f32⟩
  | _, _ => ⟨S4x500000x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x48000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x48000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x48000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x48000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x500000x24_S4x12000000 : S4x500000x24.ShapeCasts S4x12000000
  inb_S4x48000_S4x48000_0_0 : ∀ a, (![0, 0] : Fin 2 → Nat) a + S4x48000.size a ≤ S4x48000.size a
  h_S4x48000 : 0 < S4x48000.numel
  shapeCasts_S4x48000_S4x48000 : S4x48000.ShapeCasts S4x48000
  reduces_S4x48000_S48000 : S4x48000.Reduces [0] S48000
  shapeCasts_S48000_S1x48000 : S48000.ShapeCasts S1x48000
  broadcasts_S1x48000_S4x48000 : S1x48000.Broadcasts S4x48000
  inb_S1x48000_S1x48000_0_0 : ∀ a, (![0, 0] : Fin 2 → Nat) a + S1x48000.size a ≤ S1x48000.size a
  h_S1x48000 : 0 < S1x48000.numel
  shapeCasts_S1x12000000_S500000x24 : S1x12000000.ShapeCasts S500000x24
  shapeCasts_S4x12000000_S4x500000x24 : S4x12000000.ShapeCasts S4x500000x24
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x48000.size a ≤ S4x12000000.size a
  hwx0_0 : ∀ i : grid0.Coords, EltTy.bits .f32 = 32 ∨ (Rect.block (s := S4x12000000) S4x48000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x48000.size a ≤ S4x12000000.size a
  hwx0_1 : ∀ i : grid0.Coords, EltTy.bits .f32 = 32 ∨ (Rect.block (s := S4x12000000) S4x48000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x48000.size a ≤ S1x12000000.size a
  hwx0_2 : ∀ i : grid0.Coords, EltTy.bits .f32 = 32 ∨ (Rect.block (s := S1x12000000) S1x48000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x48000.size a ≤ S4x12000000.size a
  hwx0_3 : ∀ i : grid0.Coords, EltTy.bits .f32 = 32 ∨ (Rect.block (s := S4x12000000) S4x48000.size (cc0_transform_3 i) (hinb0_3 i)).WholeWords (EltTy.packing .f32)

variable [Facts₀]

abbrev win0_0 : Pipeline.Window sig grid0 :=
  Pipeline.Window.ofSpec (Memref.whole main_v0) S4x48000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x48000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x48000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S4x48000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x500000x24 : Shape := ⟨3, ![4, 500000, 24]⟩
abbrev S_ : Shape := ⟨0, ![]⟩
abbrev S500000x24 : Shape := ⟨2, ![500000, 24]⟩
abbrev S1x500000x24 : Shape := ⟨3, ![1, 500000, 24]⟩

abbrev nBuf : Space → Nat
  | .hbm => 27
  | .vmem => 0
  | .smem => 0
  | _ => 0

abbrev bufTy : (tb : Table) → Fin (tcTables nBuf tb) → BufTy
  | .hbm, ⟨0, _⟩ => ⟨S4x500000x24, .f32⟩
  | .hbm, ⟨1, _⟩ => ⟨S4x500000x24, .f32⟩
  | .hbm, ⟨2, _⟩ => ⟨S_, .f32⟩
  | .hbm, ⟨3, _⟩ => ⟨S500000x24, .f32⟩
  | .hbm, ⟨4, _⟩ => ⟨S_, .f32⟩
  | .hbm, ⟨5, _⟩ => ⟨S500000x24, .f32⟩
  | .hbm, ⟨6, _⟩ => ⟨S500000x24, .f32⟩
  | .hbm, ⟨7, _⟩ => ⟨S1x500000x24, .f32⟩
  | .hbm, ⟨8, _⟩ => ⟨S4x500000x24, .f32⟩
  | .hbm, ⟨9, _⟩ => ⟨S4x500000x24, .f32⟩
  | .hbm, ⟨10, _⟩ => ⟨S4x500000x24, .f32⟩
  | .hbm, ⟨11, _⟩ => ⟨S_, .f32⟩
  | .hbm, ⟨12, _⟩ => ⟨S500000x24, .f32⟩
  | .hbm, ⟨13, _⟩ => ⟨S1x500000x24, .f32⟩
  | .hbm, ⟨14, _⟩ => ⟨S4x500000x24, .f32⟩
  | .hbm, ⟨15, _⟩ => ⟨S4x500000x24, .f32⟩
  | .hbm, ⟨16, _⟩ => ⟨S4x500000x24, .f32⟩
  | .hbm, ⟨17, _⟩ => ⟨S_, .f32⟩
  | .hbm, ⟨18, _⟩ => ⟨S500000x24, .f32⟩
  | .hbm, ⟨19, _⟩ => ⟨S500000x24, .f32⟩
  | .hbm, ⟨20, _⟩ => ⟨S500000x24, .f32⟩
  | .hbm, ⟨21, _⟩ => ⟨S_, .f32⟩
  | .hbm, ⟨22, _⟩ => ⟨S500000x24, .f32⟩
  | .hbm, ⟨23, _⟩ => ⟨S500000x24, .f32⟩
  | .hbm, ⟨24, _⟩ => ⟨S_, .f32⟩
  | .hbm, ⟨25, _⟩ => ⟨S500000x24, .f32⟩
  | .hbm, ⟨26, _⟩ => ⟨S500000x24, .f32⟩
  | _, _ => ⟨S4x500000x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  reducesTo_S4x500000x24_S500000x24_d0 : S4x500000x24.ReducesTo [0] S500000x24
  h_S_ : 0 < S_.numel
  bcast_S_S500000x24 : S_.BroadcastsInDim S500000x24 (![] : Fin 0 → Fin S500000x24.rank)
  bcast_S500000x24_S1x500000x24_1_2 : S500000x24.BroadcastsInDim S1x500000x24 (![1, 2] : Fin 2 → Fin S1x500000x24.rank)
  bcast_S1x500000x24_S4x500000x24_0_1_2 : S1x500000x24.BroadcastsInDim S4x500000x24 (![0, 1, 2] : Fin 3 → Fin S4x500000x24.rank)

variable [Facts₀]

class Facts : Prop extends Facts₀ where

variable [Facts]
-- ==== Proof.ViewFusion.lean ====
/-
  The mathematics of the result, free of both programs.  Four "views" of one position hold four
  scores r 0 … r 3 and four values z 0 … z 3 (extended reals).  The scores are turned into weights by a
  softmax taken in the numerically shifted form both programs use: with M the greatest of the four scores
  (folded from the f32 pattern of −∞, which is what both reductions start from),
      w k = exp (r k − M) / ∑ k', exp (r k' − M),
  and the fused value is the logistic function of the weighted sum ∑ k, w k · z k.
  Nothing here needs the scores to be finite: the two programs compute this same expression operation by
  operation, so the only law used anywhere is that the maximum of the starting value and of a fold that
  began at that starting value is the fold (`seed_max_peak`).
  Then the same functions over whole arrays: over the [4, 500000, 24] arguments (a position is (b, n), its
  four views the leading axis) and over their flat [4, 12000000] forms (a position is one lane p).
-/
import Idealize.ShloMosaic.PureOps.Ideal.Laws
import Idealize.ShloMosaic.Lib.ValueIdx

noncomputable section

open scoped BigOperators

namespace Cert.ViewFusion

open Idealize.ShloMosaic Idealize.ShloMosaic.ValueIdx

/-- The greatest of the four scores, folded from the f32 pattern of −∞. -/
def peak (r : Fin 4 → EReal) : EReal :=
  (Finset.univ : Finset (Fin 4)).fold max (Ideal.ofBits .f32 0xFF800000#32) r

/-- A score shifted by the greatest one and exponentiated. -/
def lifted (r : Fin 4 → EReal) (k : Fin 4) : EReal := Ideal.exp (r k - peak r)

/-- The softmax weight of view `k`. -/
def weight (r : Fin 4 → EReal) (k : Fin 4) : EReal := Ideal.div (lifted r k) (∑ k' : Fin 4, lifted r k')

/-- The logistic function of the weighted sum of the four values. -/
def fused (z r : Fin 4 → EReal) : EReal := Ideal.logistic (∑ k : Fin 4, weight r k * z k)

/-- Taking the maximum with the fold's own starting value changes nothing: the fold is at least its start. -/
theorem seed_max_peak (r : Fin 4 → EReal) : max (Ideal.ofBits .f32 0xFF800000#32) (peak r) = peak r :=
  max_eq_right ((Finset.le_fold_max _).mpr (Or.inl le_rfl))

/-! ## Over the [4, 500000, 24] arrays -/

/-- The four views of position (b, n). -/
def col (x : (⟨3, ![4, 500000, 24]⟩ : Shape).Idx → EReal) (b : Fin 500000) (n : Fin 24) : Fin 4 → EReal :=
  fun k => x (ix3 k b n)

/-- Every weight: entry (k, b, n) is view k's weight among the scores at (b, n). -/
def weights (rho : (⟨3, ![4, 500000, 24]⟩ : Shape).Idx → EReal) : (⟨3, ![4, 500000, 24]⟩ : Shape).Idx → EReal :=
  fun i => weight (col rho (i 1) (i 2)) (i 0)

/-- Every fused value: entry (b, n). -/
def fusedAll (z rho : (⟨3, ![4, 500000, 24]⟩ : Shape).Idx → EReal) : (⟨2, ![500000, 24]⟩ : Shape).Idx → EReal :=
  fun i => fused (col z (i 0) (i 1)) (col rho (i 0) (i 1))

/-! ## Over the flat [4, 12000000] arrays -/

/-- The four views of lane p. -/
def lane (x : (⟨2, ![4, 12000000]⟩ : Shape).Idx → EReal) (p : Fin 12000000) : Fin 4 → EReal :=
  fun k => x (ix2 k p)

/-- Every weight of the flat form: entry (k, p). -/
def weightsFlat (rho : (⟨2, ![4, 12000000]⟩ : Shape).Idx → EReal) : (⟨2, ![4, 12000000]⟩ : Shape).Idx → EReal :=
  fun i => weight (lane rho (i 1)) (i 0)

/-- Every fused value of the flat form: entry (0, p). -/
def fusedFlat (z rho : (⟨2, ![4, 12000000]⟩ : Shape).Idx → EReal) : (⟨2, ![1, 12000000]⟩ : Shape).Idx → EReal :=
  fun i => fused (lane z (i 1)) (lane rho (i 1))

end Cert.ViewFusion

end
-- ==== Proof.LibLeadAxis.lean ====
/-
  Reductions over the LEADING axis of an [m, n] vector, kept as a [1, n] row and broadcast back down the m
  rows (what `jnp.max(x, axis=0, keepdims=True)` and `jnp.sum(x, axis=0, keepdims=True)` become in a kernel
  body), read at an entry (k, j): the fold of `max` from the f32 pattern of −∞, and the plain sum, over the
  m entries of column j.  General in the extents m and n.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LeadAxis

open Idealize.ShloMosaic Idealize.ShloMosaic.ValueIdx

variable {m n : Nat}

/-- The index of the [m, n] vector that reduces to lane `j` with `k` put back on the leading axis is (k, j). -/
theorem lift_lead (h : (⟨2, ![m, n]⟩ : Shape).Reduces [0] ⟨1, ![n]⟩) (j : Fin n) (k : Fin m) :
    h.lift (ix1 j) k = ix2 k j :=
  funext fun a => Fin.ext (by match a with | ⟨0, _⟩ => rfl | ⟨1, _⟩ => rfl)

/-- A maximum over the leading axis, at lane `j`: the fold of `max` from −∞'s pattern down column `j`. -/
theorem max_lead_apply (src : FVec Ideal ⟨2, ![m, n]⟩ .f32) (h : (⟨2, ![m, n]⟩ : Shape).Reduces [0] ⟨1, ![n]⟩)
    (hφ : FKind.Formats .f32) (hacc : (0xFF800000#32 : BitVec 32) = 0xFF800000#32) (j : Fin n) :
    multiReduction .maximumf [0] ⟨1, ![n]⟩ src 0xFF800000#32 h hφ hacc (ix1 j)
      = (Finset.univ : Finset (Fin m)).fold max (Ideal.ofBits .f32 0xFF800000#32) (fun k => src (ix2 k j)) := by
  refine (Ideal.multiReduction_maximumf_single src 0xFF800000#32 h hφ hacc (ix1 j)).trans ?_
  exact congrArg (fun f : Fin m → EReal => (Finset.univ : Finset (Fin m)).fold max (Ideal.ofBits .f32 0xFF800000#32) f)
    (funext fun k => congrArg src (lift_lead h j k))

/-- A sum over the leading axis, at lane `j`: the sum down column `j`. -/
theorem sum_lead_apply (src : FVec Ideal ⟨2, ![m, n]⟩ .f32) (h : (⟨2, ![m, n]⟩ : Shape).Reduces [0] ⟨1, ![n]⟩)
    (hφ : FKind.Formats .f32) (hacc : (0x00000000#32 : BitVec 32) = 0x00000000#32) (j : Fin n) :
    multiReduction .add [0] ⟨1, ![n]⟩ src 0x00000000#32 h hφ hacc (ix1 j) = ∑ k : Fin m, src (ix2 k j) := by
  refine (Ideal.multiReduction_add_single src 0x00000000#32 h hφ hacc (ix1 j)).trans ?_
  exact Finset.sum_congr rfl fun k _ => congrArg src (lift_lead h j k)

/-- A lane vector kept as a one-row matrix and broadcast down `m` rows reads, at (k, j), lane `j`. -/
theorem keepdims_apply {α : Type} (v : (⟨1, ![n]⟩ : Shape).Idx → α) (hc : (⟨1, ![n]⟩ : Shape).ShapeCasts ⟨2, ![1, n]⟩)
    (hb : (⟨2, ![1, n]⟩ : Shape).Broadcasts ⟨2, ![m, n]⟩) (k : Fin m) (j : Fin n) :
    broadcastTo ⟨2, ![m, n]⟩ (shapeCast ⟨2, ![1, n]⟩ v hc) hb (ix2 k j) = v (ix1 j) :=
  (broadcastTo_1b_ab_apply _ hb k j).trans (shapeCast_a_1a_apply v hc 0 j)

/-- A lane vector kept as a one-row matrix reads, at (0, j), lane `j`. -/
theorem keeprow_apply {α : Type} (v : (⟨1, ![n]⟩ : Shape).Idx → α) (hc : (⟨1, ![n]⟩ : Shape).ShapeCasts ⟨2, ![1, n]⟩)
    (u : Fin 1) (j : Fin n) : shapeCast ⟨2, ![1, n]⟩ v hc (ix2 u j) = v (ix1 j) :=
  shapeCast_a_1a_apply v hc u j

end Cert.LeadAxis

end
-- ==== Proof.KernelColumns.lean ====
/-
  The kernel body's two stored values, read at an entry of the [4, 48000] block it works on.  Column j of
  the block holds the four views of one position: the stored weights are the softmax weights of that
  column's scores, and the stored row is the logistic function of the column's weighted sum of values.
-/
import proofs.«115227_j41781441855930_1_alg».proof.Proof.Gen.KernelIdeal.Skeleton
import proofs.«115227_j41781441855930_1_alg».proof.Proof.ViewFusion
import proofs.«115227_j41781441855930_1_alg».proof.Proof.LibLeadAxis

noncomputable section

open scoped BigOperators

namespace Cert.KernelIdeal.Columns

open Cert.KernelIdeal Cert.KernelIdeal.Gen Cert.ViewFusion Cert.LeadAxis
open Idealize.ShloMosaic Idealize.ShloMosaic.ValueIdx

/-- The four views in column `j` of a block. -/
def blockCol (x : Vec Ideal S4x48000 .f32) (j : Fin 48000) : Fin 4 → EReal := fun k => x (ix2 k j)

/-- The vector logistic function at an entry is the logistic function of the entry. -/
theorem logistic_apply {s : Shape} (v : FVec Ideal s .f32) (i : s.Idx) : logistic v i = Ideal.logistic (v i) := rfl

/-- The exponential of a score shifted by its column's maximum (the maximum kept as a row and broadcast back). -/
theorem shifted_apply (x1 : FVec Ideal S4x48000 .f32) (hφ : FKind.Formats .f32)
    (hacc : (0xFF800000#32 : BitVec 32) = 0xFF800000#32) (k : Fin 4) (j : Fin 48000) :
    exp (subf x1 (broadcastTo S4x48000 (shapeCast S1x48000
        (multiReduction .maximumf [0] S48000 x1 0xFF800000#32 reduces_S4x48000_S48000 hφ hacc)
        shapeCasts_S48000_S1x48000) broadcasts_S1x48000_S4x48000)) (ix2 k j)
      = lifted (blockCol x1 j) k := by
  show Ideal.exp (x1 (ix2 k j) - broadcastTo S4x48000 (shapeCast S1x48000
        (multiReduction .maximumf [0] S48000 x1 0xFF800000#32 reduces_S4x48000_S48000 hφ hacc)
        shapeCasts_S48000_S1x48000) broadcasts_S1x48000_S4x48000 (ix2 k j)) = _
  rw [keepdims_apply]
  rw [max_lead_apply x1 reduces_S4x48000_S48000 hφ hacc j]
  rfl

/-- The stored weights: entry (k, j) is view k's softmax weight among column j's scores. -/
theorem pay1_apply (x1 : Vec Ideal S4x48000 .f32) (k : Fin 4) (j : Fin 48000) :
    k0_pay1 x1 (ix2 k j) = weight (blockCol x1 j) k := by
  unfold k0_pay1
  dsimp only
  rw [shapeCast_self, divf_apply, shifted_apply, keepdims_apply, sum_lead_apply]
  exact congrArg (Ideal.div (lifted (blockCol x1 j) k))
    (Finset.sum_congr rfl fun k' _ => shifted_apply x1 _ _ k' j)

/-- The stored row: entry (0, j) is the logistic function of column j's weighted sum of values. -/
theorem pay2_apply (x1 x0 : Vec Ideal S4x48000 .f32) (u : Fin 1) (j : Fin 48000) :
    k0_pay2 x1 x0 (ix2 u j) = fused (blockCol x0 j) (blockCol x1 j) := by
  unfold k0_pay2
  dsimp only
  rw [shapeCast_self, logistic_apply, keeprow_apply, sum_lead_apply]
  exact congrArg Ideal.logistic (Finset.sum_congr rfl fun k' _ => by rw [mulf_apply, pay1_apply]; rfl)

end Cert.KernelIdeal.Columns

end
-- ==== Proof.KernelBlocks.lean ====
/-
  From the kernel's blocks to its two flat result arrays.  Grid point t works on columns
  48000·t … 48000·t + 47999 of the flat [4, 12000000] forms of the arguments (all four rows), and writes
  back the same columns of the flat results.  So what point t writes is block t of ONE function of the flat
  arguments — the softmax weights and the fused values of `ViewFusion`, lane by lane — and since the 250
  blocks tile the 12000000 lanes, the result arrays end holding those functions.
-/
import proofs.«115227_j41781441855930_1_alg».proof.Proof.Gen.KernelIdeal.Frame
import proofs.«115227_j41781441855930_1_alg».proof.Proof.KernelColumns
import Idealize.ShloMosaic.Lib.Pipeline.Value

noncomputable section

open scoped BigOperators

namespace Cert.KernelIdeal.Blocks

open Cert.KernelIdeal Cert.KernelIdeal.Gen Cert.KernelIdeal.Columns Cert.ViewFusion
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The body's loads and stores start at offset zero on both axes. -/
theorem zero_offsets : (![0, 0] : Fin 2 → Nat) = fun _ => 0 := funext fun a => by fin_cases a <;> rfl

/-- Every window's block index at point t is (0, t): all rows, the t-th run of 48000 columns. -/
theorem block_index : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-! ## The input blocks as columns of the flat arguments -/

/-- Entry x of the values' block at point t is entry (x 0, 48000·t + x 1) of the flat values. -/
theorem values_block (c : Dev nD) (t : Fin cfg0.N) (x : S4x48000.Idx) (i : S4x12000000.Idx)
    (h0 : (i 0).val = (x 0).val) (h1 : (i 1).val = 48000 * t.val + (x 1).val) :
    (iblk m c 0 t : Vec Ideal S4x48000 .f32) x = (V m c main_v0 : S4x12000000.Idx → EReal) i := by
  obtain ⟨e0, e1, -⟩ := block_index t
  unfold iblk
  rw [View.read_apply]
  show V m c main_v0 _ = V m c main_v0 i
  refine congrArg (V m c main_v0) ?_
  funext a
  apply Fin.ext
  match a with
  | ⟨0, _⟩ => show win0_0.index t (0 : Fin 2) * 4 + 1 * (x 0).val = (i 0).val; rw [e0, h0]; omega
  | ⟨1, _⟩ => show win0_0.index t (1 : Fin 2) * 48000 + 1 * (x 1).val = (i 1).val; rw [e1, h1]; omega

/-- Entry x of the scores' block at point t is entry (x 0, 48000·t + x 1) of the flat scores. -/
theorem scores_block (c : Dev nD) (t : Fin cfg0.N) (x : S4x48000.Idx) (i : S4x12000000.Idx)
    (h0 : (i 0).val = (x 0).val) (h1 : (i 1).val = 48000 * t.val + (x 1).val) :
    (iblk m c 1 t : Vec Ideal S4x48000 .f32) x = (V m c main_v1 : S4x12000000.Idx → EReal) i := by
  obtain ⟨-, -, e0, e1, -⟩ := block_index t
  unfold iblk
  rw [View.read_apply]
  show V m c main_v1 _ = V m c main_v1 i
  refine congrArg (V m c main_v1) ?_
  funext a
  apply Fin.ext
  match a with
  | ⟨0, _⟩ => show win0_1.index t (0 : Fin 2) * 4 + 1 * (x 0).val = (i 0).val; rw [e0, h0]; omega
  | ⟨1, _⟩ => show win0_1.index t (1 : Fin 2) * 48000 + 1 * (x 1).val = (i 1).val; rw [e1, h1]; omega

/-! ## What the body stores, as blocks of the whole-array functions (over variables) -/

/-- If a block X1 is columns 48000·T … of the flat scores R, the stored weights at block entry y are the
    flat weights at the array entry i under it. -/
theorem weights_of_block (X1 : Vec Ideal S4x48000 .f32) (R : S4x12000000.Idx → EReal) (T : Nat)
    (hX1 : ∀ (x : S4x48000.Idx) (i : S4x12000000.Idx), (i 0).val = (x 0).val → (i 1).val = 48000 * T + (x 1).val → X1 x = R i)
    (y : S4x48000.Idx) (i : S4x12000000.Idx) (h0 : (i 0).val = (y 0).val) (h1 : (i 1).val = 48000 * T + (y 1).val) :
    k0_pay1 X1 y = weightsFlat R i := by
  obtain ⟨k, j, rfl⟩ : ∃ (k : Fin 4) (j : Fin 48000), y = ix2 k j := ⟨y 0, y 1, eq_ix2 y⟩
  obtain ⟨k', p, rfl⟩ : ∃ (k' : Fin 4) (p : Fin 12000000), i = ix2 k' p := ⟨i 0, i 1, eq_ix2 i⟩
  obtain rfl : k' = k := Fin.ext h0
  rw [pay1_apply]
  show weight (blockCol X1 j) k' = weight (lane R p) k'
  refine congrArg (fun r => weight r k') ?_
  funext q
  exact hX1 (ix2 q j) (ix2 q p) rfl h1

/-- Likewise the stored fused row. -/
theorem fused_of_block (X0 X1 : Vec Ideal S4x48000 .f32) (Z R : S4x12000000.Idx → EReal) (T : Nat)
    (hX0 : ∀ (x : S4x48000.Idx) (i : S4x12000000.Idx), (i 0).val = (x 0).val → (i 1).val = 48000 * T + (x 1).val → X0 x = Z i)
    (hX1 : ∀ (x : S4x48000.Idx) (i : S4x12000000.Idx), (i 0).val = (x 0).val → (i 1).val = 48000 * T + (x 1).val → X1 x = R i)
    (y : S1x48000.Idx) (i : S1x12000000.Idx) (h1 : (i 1).val = 48000 * T + (y 1).val) :
    k0_pay2 X1 X0 y = fusedFlat Z R i := by
  obtain ⟨u, j, rfl⟩ : ∃ (u : Fin 1) (j : Fin 48000), y = ix2 u j := ⟨y 0, y 1, eq_ix2 y⟩
  obtain ⟨u', p, rfl⟩ : ∃ (u' : Fin 1) (p : Fin 12000000), i = ix2 u' p := ⟨i 0, i 1, eq_ix2 i⟩
  rw [pay2_apply]
  show fused (blockCol X0 j) (blockCol X1 j) = fused (lane Z p) (lane R p)
  have e0 : blockCol X0 j = lane Z p := funext fun q => hX0 (ix2 q j) (ix2 q p) rfl h1
  have e1 : blockCol X1 j = lane R p := funext fun q => hX1 (ix2 q j) (ix2 q p) rfl h1
  rw [e0, e1]

/-! ## What each point writes back -/

/-- Point t writes back block t of the flat weights. -/
theorem flushed_weights (c : Dev nD) (t : Fin cfg0.N) :
    (dats m 0 c).flushed 3 t
      = ((cfg0.win 3).blk t).view.read (Elt Ideal) (weightsFlat (V m c main_v1 : S4x12000000.Idx → EReal)) := by
  show (cfg0.win 3).cut (grid0.coords t) ((dats m 0 c).after 3 t) = _
  rw [after0_3]
  unfold out0_3
  rw [View.canon_unit_zero zero_offsets]
  simp only [View.ld_unit_zero (S := S4x48000) zero_offsets]
  obtain ⟨-, -, -, -, -, -, e0, e1⟩ := block_index t
  funext y
  show k0_pay1 (iblk m c 1 t) y = weightsFlat (V m c main_v1 : S4x12000000.Idx → EReal) (((cfg0.win 3).blk t).view.emb y)
  refine weights_of_block (iblk m c 1 t) (V m c main_v1 : S4x12000000.Idx → EReal) t.val
    (fun x i h0 h1 => scores_block m c t x i h0 h1) y _ ?_ ?_
  · show win0_3.index t (0 : Fin 2) * 4 + 1 * (y 0).val = (y 0).val
    rw [e0]; omega
  · show win0_3.index t (1 : Fin 2) * 48000 + 1 * (y 1).val = 48000 * t.val + (y 1).val
    rw [e1]; omega

/-- Point t writes back block t of the flat fused values. -/
theorem flushed_fused (c : Dev nD) (t : Fin cfg0.N) :
    (dats m 0 c).flushed 2 t
      = ((cfg0.win 2).blk t).view.read (Elt Ideal)
          (fusedFlat (V m c main_v0 : S4x12000000.Idx → EReal) (V m c main_v1 : S4x12000000.Idx → EReal)) := by
  show (cfg0.win 2).cut (grid0.coords t) ((dats m 0 c).after 2 t) = _
  rw [after0_2]
  unfold out0_2
  rw [View.canon_unit_zero zero_offsets]
  simp only [View.ld_unit_zero (S := S4x48000) zero_offsets]
  obtain ⟨-, -, -, -, e0, e1, -⟩ := block_index t
  funext y
  show k0_pay2 (iblk m c 1 t) (iblk m c 0 t) y
    = fusedFlat (V m c main_v0 : S4x12000000.Idx → EReal) (V m c main_v1 : S4x12000000.Idx → EReal) (((cfg0.win 2).blk t).view.emb y)
  refine fused_of_block (iblk m c 0 t) (iblk m c 1 t) (V m c main_v0 : S4x12000000.Idx → EReal)
    (V m c main_v1 : S4x12000000.Idx → EReal) t.val
    (fun x i h0 h1 => values_block m c t x i h0 h1) (fun x i h0 h1 => scores_block m c t x i h0 h1) y _ ?_
  show win0_2.index t (1 : Fin 2) * 48000 + 1 * (y 1).val = 48000 * t.val + (y 1).val
  rw [e1]; omega

/-! ## The blocks tile the lanes -/

/-- An entry of the flat weights is in point t's block iff each coordinate is in the block's range. -/
theorem mem_block_weights (t : Fin cfg0.N) (i : S4x12000000.Idx) :
    i ∈ ((cfg0.win 3).blk t).view.set ↔ ∀ a : Fin 2, win0_3.index t a * S4x48000.size a ≤ (i a).val ∧ (i a).val < win0_3.index t a * S4x48000.size a + S4x48000.size a := by
  show i ∈ ((View.whole main_v2_1).slice (win0_3.rect t)).set ↔ _
  rw [View.set_slice_whole, Rect.mem_set_unit]
  exact Iff.rfl

/-- The same for the fused row. -/
theorem mem_block_fused (t : Fin cfg0.N) (i : S1x12000000.Idx) :
    i ∈ ((cfg0.win 2).blk t).view.set ↔ ∀ a : Fin 2, win0_2.index t a * S1x48000.size a ≤ (i a).val ∧ (i a).val < win0_2.index t a * S1x48000.size a + S1x48000.size a := by
  show i ∈ ((View.whole main_v2_0).slice (win0_2.rect t)).set ↔ _
  rw [View.set_slice_whole, Rect.mem_set_unit]
  exact Iff.rfl

/-- Lane p lies in the block of point p / 48000. -/
theorem cover_weights (i : S4x12000000.Idx) :
    ∃ t : Fin cfg0.N, (cfg0.win 3).flush t = true ∧ i ∈ ((cfg0.win 3).blk t).view.set := by
  have hi0 : (i 0).val < 4 := idx2_lt0 i
  have hi1 : (i 1).val < 12000000 := idx2_lt1 i
  have hN : cfg0.N = 250 := N_0
  refine ⟨⟨(i 1).val / 48000, by rw [hN]; omega⟩, flush0_3 _, ?_⟩
  rw [mem_block_weights]
  obtain ⟨-, -, -, -, -, -, e0, e1⟩ := block_index ⟨(i 1).val / 48000, by rw [hN]; omega⟩
  intro a
  match a with
  | ⟨0, _⟩ =>
    show win0_3.index _ (0 : Fin 2) * 4 ≤ (i 0).val ∧ (i 0).val < win0_3.index _ (0 : Fin 2) * 4 + 4
    rw [e0]; omega
  | ⟨1, _⟩ =>
    show win0_3.index _ (1 : Fin 2) * 48000 ≤ (i 1).val ∧ (i 1).val < win0_3.index _ (1 : Fin 2) * 48000 + 48000
    rw [e1]
    show (i 1).val / 48000 * 48000 ≤ (i 1).val ∧ (i 1).val < (i 1).val / 48000 * 48000 + 48000
    omega

/-- The same for the fused row. -/
theorem cover_fused (i : S1x12000000.Idx) :
    ∃ t : Fin cfg0.N, (cfg0.win 2).flush t = true ∧ i ∈ ((cfg0.win 2).blk t).view.set := by
  have hi0 : (i 0).val < 1 := idx2_lt0 i
  have hi1 : (i 1).val < 12000000 := idx2_lt1 i
  have hN : cfg0.N = 250 := N_0
  refine ⟨⟨(i 1).val / 48000, by rw [hN]; omega⟩, flush0_2 _, ?_⟩
  rw [mem_block_fused]
  obtain ⟨-, -, -, -, e0, e1, -⟩ := block_index ⟨(i 1).val / 48000, by rw [hN]; omega⟩
  intro a
  match a with
  | ⟨0, _⟩ =>
    show win0_2.index _ (0 : Fin 2) * 1 ≤ (i 0).val ∧ (i 0).val < win0_2.index _ (0 : Fin 2) * 1 + 1
    rw [e0]; omega
  | ⟨1, _⟩ =>
    show win0_2.index _ (1 : Fin 2) * 48000 ≤ (i 1).val ∧ (i 1).val < win0_2.index _ (1 : Fin 2) * 48000 + 48000
    rw [e1]
    show (i 1).val / 48000 * 48000 ≤ (i 1).val ∧ (i 1).val < (i 1).val / 48000 * 48000 + 48000
    omega

/-! ## The two flat result arrays after the region -/

/-- The flat weights array ends holding the softmax weights of the flat scores, lane by lane. -/
theorem final_weights (c : Dev nD) :
    (dats m 0 c).arrAt 3 cfg0.N = weightsFlat (V m c main_v1 : S4x12000000.Idx → EReal) :=
  (dats m 0 c).arrAt_eq_of_cover 3 _ (fun t _ => flushed_weights m c t) cover_weights

/-- The flat fused row ends holding the fused values of the flat arguments, lane by lane. -/
theorem final_fused (c : Dev nD) :
    (dats m 0 c).arrAt 2 cfg0.N
      = fusedFlat (V m c main_v0 : S4x12000000.Idx → EReal) (V m c main_v1 : S4x12000000.Idx → EReal) :=
  (dats m 0 c).arrAt_eq_of_cover 2 _ (fun t _ => flushed_fused m c t) cover_fused

end Cert.KernelIdeal.Blocks

end
-- ==== Proof.KernelHost.lean ====
/-
  The host lines around the region.  Before it, each [4, 500000, 24] argument is reshaped to its flat
  [4, 12000000] form: entry (k, p) of the flat array is entry (k, b, n) of the argument when p = 24·b + n.
  After it, the flat [4, 12000000] weights are reshaped back to [4, 500000, 24] and the flat [1, 12000000]
  fused row to [500000, 24], by the same rule.  A lane's four views are a position's four views, so the two
  results of the whole program are the weights and the fused values of `ViewFusion` over the arguments.
-/
import proofs.«115227_j41781441855930_1_alg».proof.Proof.KernelBlocks
import Idealize.ShloMosaic.Lib.StableHlo.Run

noncomputable section

open scoped BigOperators

namespace Cert.KernelIdeal.Host

open Cert.KernelIdeal Cert.KernelIdeal.Gen Cert.KernelIdeal.Blocks Cert.ViewFusion
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Before the region: the flat forms of the arguments -/

/-- The region finds the values in flat form: the first argument reshaped. -/
theorem flat_values (c : Dev nD) :
    (V m c main_v0 : S4x12000000.Idx → EReal)
      = shapeCast S4x12000000 (m ((c : Thread nD τ).loc main_arg0) : S4x500000x24.Idx → EReal) shapeCasts_S4x500000x24_S4x12000000 := by
  show StableHlo.after hostOps0 (fun b => m (c, b)) (Proc.devRef .tc main_v0) = _
  after_results
  rfl

/-- The region finds the scores in flat form: the second argument reshaped. -/
theorem flat_scores (c : Dev nD) :
    (V m c main_v1 : S4x12000000.Idx → EReal)
      = shapeCast S4x12000000 (m ((c : Thread nD τ).loc main_arg1) : S4x500000x24.Idx → EReal) shapeCasts_S4x500000x24_S4x12000000 := by
  show StableHlo.after hostOps0 (fun b => m (c, b)) (Proc.devRef .tc main_v1) = _
  after_results
  rfl

/-- Flattening the two trailing axes: entry (k, 24·b + n) of the flat form is entry (k, b, n). -/
theorem flatten_apply {α : Type} (x : S4x500000x24.Idx → α) (k : Fin 4) (b : Fin 500000) (n : Fin 24) (p : Fin 12000000)
    (hp : p.val = 24 * b.val + n.val) :
    shapeCast S4x12000000 x shapeCasts_S4x500000x24_S4x12000000 (ix2 k p) = x (ix3 k b n) := by
  refine shapeCast_apply x _ (ix2 k p) (ix3 k b n) ?_
  rw [Shape.rowMajor_val_three, Shape.rowMajor_val_two]
  show (k.val * 500000 + b.val) * 24 + n.val = k.val * 12000000 + p.val
  omega

/-- The four views of lane 24·b + n of a flat argument are the four views of position (b, n). -/
theorem lane_flatten (x : S4x500000x24.Idx → EReal) (b : Fin 500000) (n : Fin 24) (p : Fin 12000000)
    (hp : p.val = 24 * b.val + n.val) :
    lane (shapeCast S4x12000000 x shapeCasts_S4x500000x24_S4x12000000) p = col x b n :=
  funext fun k => flatten_apply x k b n p hp

/-! ## After the region: the results reshaped back -/

/-- The second result is the region's flat weights reshaped. -/
theorem tail_weights (c : Dev nD) :
    Pipeline.afterTail₀ cfgs (dats m) 0 (V0 m) [hostOps1] c main_v4
      = shapeCast S4x500000x24 ((dats m 0 c).arrAt 3 cfg0.N : S4x12000000.Idx → EReal) shapeCasts_S4x12000000_S4x500000x24 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v2_1)
      = (dats m 0 c).arrAt 3 cfg0.N :=
    Pipeline.withArrays_arr spec0 launch0.win.arr_inj c (V0 m c) (fun w => (dats m 0 c).arrAt w cfg0.N) 3
  rw [e]
  rfl

/-- The first result is the region's flat fused row reshaped. -/
theorem tail_fused (c : Dev nD) :
    Pipeline.afterTail₀ cfgs (dats m) 0 (V0 m) [hostOps1] c main_v3
      = shapeCast S500000x24 ((dats m 0 c).arrAt 2 cfg0.N : S1x12000000.Idx → EReal) shapeCasts_S1x12000000_S500000x24 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2_0)
      = (dats m 0 c).arrAt 2 cfg0.N :=
    Pipeline.withArrays_arr spec0 launch0.win.arr_inj c (V0 m c) (fun w => (dats m 0 c).arrAt w cfg0.N) 2
  rw [e]
  rfl

/-- Unflattening: entry (k, b, n) of the reshaped weights is entry (k, 24·b + n) of the flat ones. -/
theorem unflatten_apply {α : Type} (x : S4x12000000.Idx → α) (k : Fin 4) (b : Fin 500000) (n : Fin 24) (p : Fin 12000000)
    (hp : p.val = 24 * b.val + n.val) :
    shapeCast S4x500000x24 x shapeCasts_S4x12000000_S4x500000x24 (ix3 k b n) = x (ix2 k p) := by
  refine shapeCast_apply x _ (ix3 k b n) (ix2 k p) ?_
  rw [Shape.rowMajor_val_three, Shape.rowMajor_val_two]
  show k.val * 12000000 + p.val = (k.val * 500000 + b.val) * 24 + n.val
  omega

/-- Entry (b, n) of the reshaped fused values is entry (0, 24·b + n) of the flat row. -/
theorem unflatten_row_apply {α : Type} (x : S1x12000000.Idx → α) (u : Fin 1) (b : Fin 500000) (n : Fin 24) (p : Fin 12000000)
    (hp : p.val = 24 * b.val + n.val) :
    shapeCast S500000x24 x shapeCasts_S1x12000000_S500000x24 (ix2 b n) = x (ix2 u p) := by
  refine shapeCast_apply x _ (ix2 b n) (ix2 u p) ?_
  rw [Shape.rowMajor_val_two, Shape.rowMajor_val_two]
  have hu : u.val = 0 := by omega
  show u.val * 12000000 + p.val = b.val * 24 + n.val
  omega

/-- The lane under position (b, n). -/
def laneOf (b : Fin 500000) (n : Fin 24) : Fin 12000000 := ⟨24 * b.val + n.val, by omega⟩

/-! ## The two results of the whole program -/

/-- The second result: the softmax weights of the scores, position by position. -/
theorem result_weights (c : Dev nD) :
    Pipeline.afterTail₀ cfgs (dats m) 0 (V0 m) [hostOps1] c main_v4
      = weights (m ((c : Thread nD τ).loc main_arg1) : S4x500000x24.Idx → EReal) := by
  rw [tail_weights, final_weights, flat_scores]
  funext i
  obtain ⟨k, b, n, rfl⟩ : ∃ (k : Fin 4) (b : Fin 500000) (n : Fin 24), i = ix3 k b n := ⟨i 0, i 1, i 2, eq_ix3 i⟩
  refine (unflatten_apply _ k b n (laneOf b n) rfl).trans ?_
  show weight (lane _ (laneOf b n)) k = weight (col _ b n) k
  rw [lane_flatten _ b n (laneOf b n) rfl]

/-- The first result: the fused values, position by position. -/
theorem result_fused (c : Dev nD) :
    Pipeline.afterTail₀ cfgs (dats m) 0 (V0 m) [hostOps1] c main_v3
      = fusedAll (m ((c : Thread nD τ).loc main_arg0) : S4x500000x24.Idx → EReal)
          (m ((c : Thread nD τ).loc main_arg1) : S4x500000x24.Idx → EReal) := by
  rw [tail_fused, final_fused, flat_values, flat_scores]
  funext i
  obtain ⟨b, n, rfl⟩ : ∃ (b : Fin 500000) (n : Fin 24), i = ix2 b n := ⟨i 0, i 1, eq_ix2 i⟩
  refine (unflatten_row_apply _ 0 b n (laneOf b n) rfl).trans ?_
  show fused (lane _ (laneOf b n)) (lane _ (laneOf b n)) = fused (col _ b n) (col _ b n)
  rw [lane_flatten _ b n (laneOf b n) rfl, lane_flatten _ b n (laneOf b n) rfl]

/-! ## The run, read -/

/-- Every weakly fair execution of the idealized kernel program terminates with its two results at the
    fused values and the weights of its arguments, the arguments unchanged. -/
theorem run : θ_run defs (onTc (τ := τ) (main (F := Ideal))) ⟨m, fun _ => 0, ρ⟩ fun r => ∀ c : Dev nD,
      r.2.mem ((c.tc : Thread nD τ).loc main_v3)
        = fusedAll (m ((c.tc : Thread nD τ).loc main_arg0) : S4x500000x24.Idx → EReal)
            (m ((c.tc : Thread nD τ).loc main_arg1) : S4x500000x24.Idx → EReal)
      ∧ r.2.mem ((c.tc : Thread nD τ).loc main_v4) = weights (m ((c.tc : Thread nD τ).loc main_arg1) : S4x500000x24.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (result_fused m c),
     ((h c).2 main_v4 (Pipeline.mem_restRefs_of main_v4 (by decide) (by decide))).trans (result_weights m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Host

end
-- ==== Proof.RefColumns.lean ====
/-
  The reference, one operation at a time, read at position (b, n) of its [4, 500000, 24] arguments: its
  maximum over the leading axis is the greatest of the position's four scores, its exponentials the shifted
  scores, its quotient the softmax weights, and its negate / exponential / add / divide chain the logistic
  function of the weighted sum — the functions of `ViewFusion`, entry by entry.
-/
import proofs.«115227_j41781441855930_1_alg».proof.Proof.Gen.ReferenceIdeal.Read
import proofs.«115227_j41781441855930_1_alg».proof.Proof.ViewFusion
import Idealize.ShloMosaic.Lib.IdealHost

noncomputable section

open scoped BigOperators

namespace Cert.ReferenceIdeal.Columns

open Cert.ReferenceIdeal Cert.ReferenceIdeal.Gen Cert.ReferenceIdeal.Read Cert.ViewFusion
open Idealize.ShloMosaic Idealize.ShloMosaic.ValueIdx

/-- An argument array at the ideal instance. -/
abbrev Arr : Type := (⟨S4x500000x24, .f32⟩ : BufTy).Contents (Elt Ideal)

/-! ## The index maps of the reference's broadcasts and sums, by coordinates -/

theorem idx_v3_v4 (k : Fin 4) (b : Fin 500000) (n : Fin 24) : idx_main_v3 (idx_main_v4 (ix3 k b n)) = ix2 b n :=
  funext fun a => Fin.ext (by match a with | ⟨0, _⟩ => rfl | ⟨1, _⟩ => rfl)
theorem idx_v8_v9 (k : Fin 4) (b : Fin 500000) (n : Fin 24) : idx_main_v8 (idx_main_v9 (ix3 k b n)) = ix2 b n :=
  funext fun a => Fin.ext (by match a with | ⟨0, _⟩ => rfl | ⟨1, _⟩ => rfl)
theorem idx_v7 (b : Fin 500000) (n : Fin 24) (k : Fin 4) : idx_main_v7 (ix2 b n) k = ix3 k b n :=
  funext fun a => Fin.ext (by match a with | ⟨0, _⟩ => rfl | ⟨1, _⟩ => rfl | ⟨2, _⟩ => rfl)
theorem idx_v12 (b : Fin 500000) (n : Fin 24) (k : Fin 4) : idx_main_v12 (ix2 b n) k = ix3 k b n :=
  funext fun a => Fin.ext (by match a with | ⟨0, _⟩ => rfl | ⟨1, _⟩ => rfl | ⟨2, _⟩ => rfl)

/-! ## The stages at a position -/

/-- Dropping the leading axis of [4, 500000, 24] leaves [500000, 24]. -/
theorem reduces_lead : S4x500000x24.Reduces [0] S500000x24 := by decide

/-- The maximum over the views is the greatest of the position's four scores. -/
theorem v0_apply (x1 : Arr) (b : Fin 500000) (n : Fin 24) :
    val_main_v0 (F := Ideal) x1 (ix2 b n) = peak (col x1 b n) := by
  unfold val_main_v0
  refine (Host.reduce_eq_fold_single (FloatOps.maximumf (F := Ideal) (φ := .f32)) x1 (val_main_cst (F := Ideal))
    reducesTo_S4x500000x24_S500000x24_d0 reduces_lead h_S_ (ix2 b n)).trans ?_
  exact congrArg (fun f : Fin 4 → EReal => (Finset.univ : Finset (Fin 4)).fold max (Ideal.ofBits .f32 0xFF800000#32) f)
    (funext fun k => congrArg x1 (funext fun a => Fin.ext (by
      match a with | ⟨0, _⟩ => rfl | ⟨1, _⟩ => rfl | ⟨2, _⟩ => rfl)))

/-- The maximum taken once more with −∞ is still that. -/
theorem v2_apply (x1 : Arr) (b : Fin 500000) (n : Fin 24) :
    val_main_v2 (F := Ideal) x1 (ix2 b n) = peak (col x1 b n) := by
  rw [val_main_v2_apply, val_main_v1_apply, val_main_cst_0_apply, v0_apply]
  exact seed_max_peak _

/-- Broadcast back over the views. -/
theorem v4_apply (x1 : Arr) (k : Fin 4) (b : Fin 500000) (n : Fin 24) :
    val_main_v4 (F := Ideal) x1 (ix3 k b n) = peak (col x1 b n) := by
  rw [val_main_v4_apply, val_main_v3_apply, idx_v3_v4, v2_apply]

/-- The exponential of the shifted score. -/
theorem v6_apply (x1 : Arr) (k : Fin 4) (b : Fin 500000) (n : Fin 24) :
    val_main_v6 (F := Ideal) x1 (ix3 k b n) = lifted (col x1 b n) k := by
  rw [val_main_v6_apply, val_main_v5_apply, v4_apply]
  rfl

/-- Their sum over the views. -/
theorem v7_apply (x1 : Arr) (b : Fin 500000) (n : Fin 24) :
    val_main_v7 (F := Ideal) x1 (ix2 b n) = ∑ k : Fin 4, lifted (col x1 b n) k := by
  rw [val_main_v7_apply]
  have h0 : val_main_cst_1 (F := Ideal) (Shape.Idx.first h_S_) = 0 := Ideal.ofBits_zero_f32
  rw [h0, zero_add]
  exact Finset.sum_congr rfl fun k _ => by rw [idx_v7]; exact v6_apply x1 k b n

/-- The softmax weight. -/
theorem v10_apply (x1 : Arr) (k : Fin 4) (b : Fin 500000) (n : Fin 24) :
    val_main_v10 (F := Ideal) x1 (ix3 k b n) = weight (col x1 b n) k := by
  rw [val_main_v10_apply, v6_apply, val_main_v9_apply, val_main_v8_apply, idx_v8_v9, v7_apply]
  rfl

/-- The weighted sum of the values. -/
theorem v12_apply (x0 x1 : Arr) (b : Fin 500000) (n : Fin 24) :
    val_main_v12 (F := Ideal) x0 x1 (ix2 b n) = ∑ k : Fin 4, weight (col x1 b n) k * col x0 b n k := by
  rw [val_main_v12_apply]
  have h0 : val_main_cst_2 (F := Ideal) (Shape.Idx.first h_S_) = 0 := Ideal.ofBits_zero_f32
  rw [h0, zero_add]
  exact Finset.sum_congr rfl fun k _ => by rw [idx_v12, val_main_v11_apply, v10_apply]; rfl

/-- One over one plus the exponential of the negated sum: the logistic function of it. -/
theorem v18_apply (x0 x1 : Arr) (b : Fin 500000) (n : Fin 24) :
    val_main_v18 (F := Ideal) x0 x1 (ix2 b n) = fused (col x0 b n) (col x1 b n) := by
  rw [val_main_v18_apply, val_main_v17_apply, val_main_cst_4_apply, val_main_v16_apply, val_main_v15_apply,
    val_main_cst_3_apply, val_main_v14_apply, val_main_v13_apply, v12_apply]
  show Ideal.div (Ideal.ofBits .f32 0x3F800000#32)
      (Ideal.ofBits .f32 0x3F800000#32 + Ideal.exp (-(∑ k : Fin 4, weight (col x1 b n) k * col x0 b n k))) = _
  rw [Ideal.ofBits_one_f32]
  rfl

/-! ## The two results as whole arrays -/

theorem weights_eq (x1 : Arr) : val_main_v10 (F := Ideal) x1 = weights x1 := by
  funext i
  obtain ⟨k, b, n, rfl⟩ : ∃ (k : Fin 4) (b : Fin 500000) (n : Fin 24), i = ix3 k b n := ⟨i 0, i 1, i 2, eq_ix3 i⟩
  exact v10_apply x1 k b n

theorem fused_eq (x0 x1 : Arr) : val_main_v18 (F := Ideal) x0 x1 = fusedAll x0 x1 := by
  funext i
  obtain ⟨b, n, rfl⟩ : ∃ (b : Fin 500000) (n : Fin 24), i = ix2 b n := ⟨i 0, i 1, eq_ix2 i⟩
  exact v18_apply x0 x1 b n

end Cert.ReferenceIdeal.Columns

end
-- ==== Proof.lean ====
/-
  Four views of each of 500000 × 24 positions carry a score and a value.  The kernel flattens the
  positions into 12000000 lanes, and on each block of 48000 lanes takes the softmax of the four scores of
  every lane (shifted by their maximum), stores the four weights, and stores the logistic function of the
  weighted sum of the four values; the results are reshaped back.  The reference does the same with jnp on
  the unflattened arrays.  At the ideal instance the two compute, position by position, the same
  expression of the same four scores and four values, operation for operation: a maximum folded from −∞, an
  exponential of a difference, a sum from zero, a quotient, a product, a sum, and 1 / (1 + exp (−x)), which is
  what the kernel's logistic operation denotes.  The reference takes one more maximum with −∞ before it
  subtracts; that changes nothing.  No step needs the inputs to be finite, so the precondition is never opened.
  The kernel's frames are the generated ones; the reference's frame is its generated run with the results
  dropped; the ideal pass rewrote nothing, so `preserves` is trivial.
-/
import proofs.«115227_j41781441855930_1_alg».proof.Defs
import proofs.«115227_j41781441855930_1_alg».proof.Proof.Gen.Kernel
import proofs.«115227_j41781441855930_1_alg».proof.Proof.Gen.Kernel.Skeleton
import proofs.«115227_j41781441855930_1_alg».proof.Proof.Gen.Kernel.Launch
import proofs.«115227_j41781441855930_1_alg».proof.Proof.Gen.Kernel.Points
import proofs.«115227_j41781441855930_1_alg».proof.Proof.Gen.Kernel.Frame
import proofs.«115227_j41781441855930_1_alg».proof.Proof.Gen.KernelIdeal
import proofs.«115227_j41781441855930_1_alg».proof.Proof.Gen.KernelIdeal.Skeleton
import proofs.«115227_j41781441855930_1_alg».proof.Proof.Gen.KernelIdeal.Launch
import proofs.«115227_j41781441855930_1_alg».proof.Proof.Gen.KernelIdeal.Points
import proofs.«115227_j41781441855930_1_alg».proof.Proof.Gen.KernelIdeal.Frame
import proofs.«115227_j41781441855930_1_alg».proof.Proof.Gen.ReferenceIdeal
import proofs.«115227_j41781441855930_1_alg».proof.Proof.Gen.Pre_finite_inputs
import proofs.«115227_j41781441855930_1_alg».proof.Proof.Gen.ReferenceIdeal.Read
import proofs.«115227_j41781441855930_1_alg».proof.Proof.KernelHost
import proofs.«115227_j41781441855930_1_alg».proof.Proof.RefColumns
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's run keeps its arguments; forget what it says of the results. -/
theorem frame_reference : Cert.frame_ReferenceIdeal := fun m ρ _ =>
  (θ_run Cert.ReferenceIdeal.defs _ _).mono (fun _ h c => ⟨(h c).2.2.1, (h c).2.2.2⟩)
    (Cert.ReferenceIdeal.Value.run (F := Ideal) m ρ)

/-- The ideal pass rewrote no operation. -/
theorem preserves : Cert.preserves_Kernel_KernelIdeal := trivial

/-- Both programs end with the fused values and the softmax weights of the same arguments. -/
theorem algebraic : Cert.algebraic_KernelIdeal_ReferenceIdeal := by
  intro m ρ m' ρ' _ hagree
  refine ⟨fun c => Cert.ViewFusion.fusedAll
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
    fun c => Cert.ViewFusion.weights
        (m ((c.tc : Thread Cert.KernelIdeal.nD Cert.KernelIdeal.τ).loc Cert.KernelIdeal.main_arg1)),
    Cert.KernelIdeal.Host.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v18_eq, Cert.ReferenceIdeal.Columns.fused_eq,
      (hagree c).1, (hagree c).2]
  · rw [(h c).2.1, Cert.ReferenceIdeal.Read.val_main_v10_eq, Cert.ReferenceIdeal.Columns.weights_eq,
      (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
